-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32x32 : Shape := ⟨4, ![16, 512, 32, 32]⟩
abbrev S16384x512 : Shape := ⟨2, ![16384, 512]⟩
abbrev S_ : Shape := ⟨0, ![]⟩

class Facts : Prop where
  bcast_S_S16x512x32x32 : S_.BroadcastsInDim S16x512x32x32 (![] : Fin 0 → Fin S16x512x32x32.rank)
  reducesTo_S16x512x32x32_S_d0_1_2_3 : S16x512x32x32.ReducesTo [0, 1, 2, 3] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16x512x32x32 .f32) (main_arg1 : FVec F S16384x512 .f32) (main_arg2 : FVec F S16384x512 .f32) : IVec S_ 1 :=
  let main_v0 : FVec F S16x512x32x32 .f32 := Host.absf main_arg0
  let main_cst : FVec F S_ .f32 := constant S_ .f32 0x7F800000#32
  let main_v1 : FVec F S16x512x32x32 .f32 := broadcastInDim S16x512x32x32 ![] bcast_S_S16x512x32x32 main_cst
  let main_v2 : IVec S16x512x32x32 1 := cmpf .olt main_v0 main_v1
  let main_c : IVec S_ 1 := constantI S_ 1 1#1
  let main_v3 : IVec S_ 1 := (fun x v => Host.reduce IntOp.andi x v reducesTo_S16x512x32x32_S_d0_1_2_3 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  main_v13
-- ==== Kernel.lean ====
abbrev S16x512x32x32 : Shape := ⟨4, ![16, 512, 32, 32]⟩
abbrev S16384x512 : Shape := ⟨2, ![16384, 512]⟩
abbrev S1x512 : Shape := ⟨2, ![1, 512]⟩
abbrev S1x512x32x32 : Shape := ⟨4, ![1, 512, 32, 32]⟩
abbrev S512x32x32 : Shape := ⟨3, ![512, 32, 32]⟩
abbrev S512x32 : Shape := ⟨2, ![512, 32]⟩
abbrev S512 : Shape := ⟨1, ![512]⟩
abbrev S_ : Shape := ⟨0, ![]⟩
abbrev S1x1 : Shape := ⟨2, ![1, 1]⟩
abbrev S1024x512 : Shape := ⟨2, ![1024, 512]⟩
abbrev S32x32x512 : Shape := ⟨3, ![32, 32, 512]⟩
abbrev S1024 : Shape := ⟨1, ![1024]⟩
abbrev S1024x1 : Shape := ⟨2, ![1024, 1]⟩
abbrev S1 : Shape := ⟨1, ![1]⟩

abbrev nBuf : Space → Nat
  | .hbm => 15
  | .vmem => 13
  | .smem => 0
  | _ => 0

abbrev bufTy : (tb : Table) → Fin (tcTables nBuf tb) → BufTy
  | .hbm, ⟨0, _⟩ => ⟨S16x512x32x32, .f32⟩
  | .hbm, ⟨1, _⟩ => ⟨S16384x512, .f32⟩
  | .hbm, ⟨2, _⟩ => ⟨S16384x512, .f32⟩
  | .hbm, ⟨3, _⟩ => ⟨S1x512, .f32⟩
  | .hbm, ⟨4, _⟩ => ⟨S1x512, .f32⟩
  | .hbm, ⟨5, _⟩ => ⟨S_, .f32⟩
  | .hbm, ⟨6, _⟩ => ⟨S1x512, .f32⟩
  | .hbm, ⟨7, _⟩ => ⟨S1x512, .f32⟩
  | .hbm, ⟨8, _⟩ => ⟨S_, .f32⟩
  | .hbm, ⟨9, _⟩ => ⟨S1x512, .f32⟩
  | .hbm, ⟨10, _⟩ => ⟨S1x512, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x512x32x32, .f32⟩
  | .local _ .vmem, ⟨1, _⟩ => ⟨S1x512x32x32, .f32⟩
  | .local _ .vmem, ⟨2, _⟩ => ⟨S1x512, .f32⟩
  | .local _ .vmem, ⟨3, _⟩ => ⟨S1x512, .f32⟩
  | .local _ .vmem, ⟨4, _⟩ => ⟨S1x512x32x32, .f32⟩
  | .local _ .vmem, ⟨5, _⟩ => ⟨S1x512x32x32, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1x1, .f32⟩
  | _, _ => ⟨S16x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1x512x32x32_S1x512x32x32_0_0_0_0 : ∀ a, (![0, 0, 0, 0] : Fin 4 → Nat) a + S1x512x32x32.size a ≤ S1x512x32x32.size a
  h_S1x512x32x32 : 0 < S1x512x32x32.numel
  shapeCasts_S1x512x32x32_S512x32x32 : S1x512x32x32.ShapeCasts S512x32x32
  reduces_S512x32x32_S512x32 : S512x32x32.Reduces [2] S512x32
  reduces_S512x32_S512 : S512x32.Reduces [1] S512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S512_S1x512 : S512.ShapeCasts S1x512
  bcast_S_S1x512 : S_.BroadcastsInDim S1x512 (![] : Fin 0 → Fin S1x512.rank)
  transposes_S512x32x32_p1_2_0_S32x32x512 : S512x32x32.Transposes [1, 2, 0] S32x32x512
  shapeCasts_S32x32x512_S1024x512 : S32x32x512.ShapeCasts S1024x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1x512_S1024x512 : S1x512.Broadcasts S1024x512
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32x32.size a ≤ S16x512x32x32.size a
  hwx0_0 : ∀ i : grid0.Coords, EltTy.bits .f32 = 32 ∨ (Rect.block (s := S16x512x32x32) S1x512x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x32x32.size a ≤ S16x512x32x32.size a
  hwx1_0 : ∀ i : grid1.Coords, EltTy.bits .f32 = 32 ∨ (Rect.block (s := S16x512x32x32) S1x512x32x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x512.size a
  hwx1_1 : ∀ i : grid1.Coords, EltTy.bits .f32 = 32 ∨ (Rect.block (s := S16384x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S16384x512.size a
  hwx1_2 : ∀ i : grid1.Coords, EltTy.bits .f32 = 32 ∨ (Rect.block (s := S16384x512) S1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

abbrev win0_0 : Pipeline.Window sig grid0 :=
  Pipeline.Window.ofSpec (Memref.whole main_arg0) S1x512x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x512x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x512x32x32 : Shape := ⟨4, ![16, 512, 32, 32]⟩
abbrev S16384x512 : Shape := ⟨2, ![16384, 512]⟩
abbrev S16x32x32x512 : Shape := ⟨4, ![16, 32, 32, 512]⟩
abbrev S_ : Shape := ⟨0, ![]⟩
abbrev S16384 : Shape := ⟨1, ![16384]⟩
abbrev S512 : Shape := ⟨1, ![512]⟩
abbrev S1x512 : Shape := ⟨2, ![1, 512]⟩

abbrev nBuf : Space → Nat
  | .hbm => 48
  | .vmem => 0
  | .smem => 0
  | _ => 0

abbrev bufTy : (tb : Table) → Fin (tcTables nBuf tb) → BufTy
  | .hbm, ⟨0, _⟩ => ⟨S16x512x32x32, .f32⟩
  | .hbm, ⟨1, _⟩ => ⟨S16384x512, .f32⟩
  | .hbm, ⟨2, _⟩ => ⟨S16384x512, .f32⟩
  | .hbm, ⟨3, _⟩ => ⟨S16x32x32x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S16384x512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S1x512, .f32⟩
  | .hbm, ⟨30, _⟩ => ⟨S16384x512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S16x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S16x512x32x32_S16x32x32x512_0_2_3_1 : S16x512x32x32.Transposes [0, 2, 3, 1] S16x32x32x512
  shapeCasts_S16x32x32x512_S16384x512 : S16x32x32x512.ShapeCasts S16384x512
  reducesTo_S16384x512_S16384_d1 : S16384x512.ReducesTo [1] S16384
  h_S_ : 0 < S_.numel
  bcast_S_S16384 : S_.BroadcastsInDim S16384 (![] : Fin 0 → Fin S16384.rank)
  reducesTo_S16384x512_S512_d0 : S16384x512.ReducesTo [0] S512
  bcast_S_S512 : S_.BroadcastsInDim S512 (![] : Fin 0 → Fin S512.rank)
  bcast_S_S16384x512 : S_.BroadcastsInDim S16384x512 (![] : Fin 0 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384_S_d0 : S16384.ReducesTo [0] S_

variable [Facts₀]

class Facts : Prop extends Facts₀ where

variable [Facts]
-- ==== Proof.KernelRun.lean ====
/-
  The idealized kernel's run with its result named.

  The program is: the statistics pass, three host operations per statistic (divide each sum by 16384), the loss pass,
  then three host operations (drop the unit axes, divide by 16384). Every weakly fair execution terminates, and the
  final memory is, buffer by buffer, the last of five boundary contents: the launch memory, after the first pass, after
  the first host stretch, after the second pass, after the last host stretch. Read at the result buffer and at the three
  argument buffers this gives the run's post: the result at the last boundary's contents, the arguments as launched.
-/
import proofs.«117637_j36034775613659_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents of
    the last boundary, and the three argument arrays end as launched. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Result

end
-- ==== Proof.Body.lean ====
/-
  What one grid point of each kernel leaves in its accumulator blocks, as a value.

  Both kernels keep an output block whose index never moves across the 16 grid points: the statistics pass keeps
  two rows of 512 entries (the running per-feature sum of x and of x²), the loss pass keeps one scalar (the running loss).
  At the first point the body stores zeros into the block, reads them back and adds this point's contribution; at every
  later point it reads what the point before left and adds this point's contribution. Each of the six lemmas below says
  exactly that: the block after the body is the one covering store's value, a function of the input blocks and of what
  the block held before (the zeros at the first point).
-/
import proofs.«117637_j36034775613659_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The statistics pass -/

/-- A later grid point adds the block's per-feature sum to what the accumulator held. -/
theorem sum_later (c : Dev nD) (i : grid0.Coords) (a1 : Memref sig .tc .vmem S1x512x32x32 .f32) (h1 : a1.IsWhole)
    (a2 : Memref sig .tc .vmem S1x512 .f32) (h2 : a2.IsWhole) (a3 : Memref sig .tc .vmem S1x512 .f32) (h3 : a3.IsWhole)
    (hc : ¬cond0_0 i) (x : Vec F S1x512x32x32 .f32) (xo1 xo2 : Vec F S1x512 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  rw [View.canon_unit_zero hz2]
  simp only [View.readAt_eq_ld, h1.read_unread, h2.read_unread, View.ld_unit_zero (S := S1x512x32x32) hz4,
    View.ld_unit_zero (S := S1x512) hz2]

/-- A later grid point adds the block's per-feature sum of squares to what the accumulator held. -/
theorem sq_later (c : Dev nD) (i : grid0.Coords) (a1 : Memref sig .tc .vmem S1x512x32x32 .f32) (h1 : a1.IsWhole)
    (a2 : Memref sig .tc .vmem S1x512 .f32) (h2 : a2.IsWhole) (a3 : Memref sig .tc .vmem S1x512 .f32) (h3 : a3.IsWhole)
    (hc : ¬cond0_0 i) (x : Vec F S1x512x32x32 .f32) (xo1 xo2 : Vec F S1x512 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  rw [View.canon_unit_zero hz2]
  simp only [View.readAt_eq_ld, h1.read_unread, h3.read_unread, View.ld_unit_zero (S := S1x512x32x32) hz4,
    View.ld_unit_zero (S := S1x512) hz2]

/-- The first grid point stores zeros, reads them back, and adds the block's per-feature sum. -/
theorem sum_first (c : Dev nD) (i : grid0.Coords) (a1 : Memref sig .tc .vmem S1x512x32x32 .f32) (h1 : a1.IsWhole)
    (a2 : Memref sig .tc .vmem S1x512 .f32) (h2 : a2.IsWhole) (a3 : Memref sig .tc .vmem S1x512 .f32) (h3 : a3.IsWhole)
    (hc : cond0_0 i) (x : Vec F S1x512x32x32 .f32) :
    out0_A_1 c i a1 h1 a2 h2 a3 h3 hc x = k0_pay4 x k0_pay2 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x512) hz2, View.readCov_unit_zero (S := S1x512) _ hz2]
  simp only [View.readAt_eq_ld, h1.read_unread, View.ld_unit_zero (S := S1x512x32x32) hz4,
    View.ld_unit_zero (S := S1x512) hz2]

/-- The first grid point stores zeros, reads them back, and adds the block's per-feature sum of squares. -/
theorem sq_first (c : Dev nD) (i : grid0.Coords) (a1 : Memref sig .tc .vmem S1x512x32x32 .f32) (h1 : a1.IsWhole)
    (a2 : Memref sig .tc .vmem S1x512 .f32) (h2 : a2.IsWhole) (a3 : Memref sig .tc .vmem S1x512 .f32) (h3 : a3.IsWhole)
    (hc : cond0_0 i) (x : Vec F S1x512x32x32 .f32) :
    out0_A_2 c i a1 h1 a2 h2 a3 h3 hc x = k0_pay5 x k0_pay3 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x512) hz2, View.readCov_unit_zero (S := S1x512) _ hz2]
  simp only [View.readAt_eq_ld, h1.read_unread, View.ld_unit_zero (S := S1x512x32x32) hz4,
    View.ld_unit_zero (S := S1x512) hz2]

/-! ## The loss pass -/

/-- A later grid point adds the block's partial loss to what the accumulator held. -/
theorem loss_later (c : Dev nD) (i : grid1.Coords) (a1 : Memref sig .tc .vmem S1x512x32x32 .f32) (h1 : a1.IsWhole)
    (a2 : Memref sig .tc .vmem S1024x512 .f32) (h2 : a2.IsWhole) (a3 : Memref sig .tc .vmem S1024x512 .f32) (h3 : a3.IsWhole)
    (a4 : Memref sig .tc .vmem S1x512 .f32) (h4 : a4.IsWhole) (a5 : Memref sig .tc .vmem S1x512 .f32) (h5 : a5.IsWhole)
    (a6 : Memref sig .tc .vmem S1x1 .f32) (h6 : a6.IsWhole)
    (hc : ¬cond1_0 i) (x0 : Vec F S1x512x32x32 .f32) (x1 x2 : Vec F S1024x512 .f32) (x3 x4 : Vec F S1x512 .f32)
    (xo : Vec F S1x1 .f32) :
    out1_B_5 c i a1 h1 a2 h2 a3 h3 a4 h4 a5 h5 a6 h6 hc x0 x1 x2 x3 x4 xo = k1_pay2 (k1_pay3 x0 x1 x2 x3 x4) xo := by
  unfold out1_B_5
  rw [View.read_writes_eq_canon _ _ _ (cover1_B_5 c i a1 h1 a2 h2 a3 h3 a4 h4 a5 h5 a6 h6 hc x0 x1 x2 x3 x4 xo)]
  unfold kernelRun1_B
  dsimp only
  sl_unfold_words
  rw [View.canon_unit_zero hz2]
  simp only [View.readAt_eq_ld, h1.read_unread, h2.read_unread, h3.read_unread, h4.read_unread, h5.read_unread,
    h6.read_unread, View.ld_unit_zero (S := S1x512x32x32) hz4, View.ld_unit_zero (S := S1x512) hz2,
    View.ld_unit_zero (S := S1024x512) hz2, View.ld_unit_zero (S := S1x1) hz2]

/-- The first grid point stores a zero, reads it back, and adds the block's partial loss. -/
theorem loss_first (c : Dev nD) (i : grid1.Coords) (a1 : Memref sig .tc .vmem S1x512x32x32 .f32) (h1 : a1.IsWhole)
    (a2 : Memref sig .tc .vmem S1024x512 .f32) (h2 : a2.IsWhole) (a3 : Memref sig .tc .vmem S1024x512 .f32) (h3 : a3.IsWhole)
    (a4 : Memref sig .tc .vmem S1x512 .f32) (h4 : a4.IsWhole) (a5 : Memref sig .tc .vmem S1x512 .f32) (h5 : a5.IsWhole)
    (a6 : Memref sig .tc .vmem S1x1 .f32) (h6 : a6.IsWhole)
    (hc : cond1_0 i) (x0 : Vec F S1x512x32x32 .f32) (x1 x2 : Vec F S1024x512 .f32) (x3 x4 : Vec F S1x512 .f32) :
    out1_A_5 c i a1 h1 a2 h2 a3 h3 a4 h4 a5 h5 a6 h6 hc x0 x1 x2 x3 x4 = k1_pay2 (k1_pay3 x0 x1 x2 x3 x4) k1_pay1 := by
  unfold out1_A_5
  rw [View.read_writes_eq_canon _ _ _ (cover1_A_5 c i a1 h1 a2 h2 a3 h3 a4 h4 a5 h5 a6 h6 hc x0 x1 x2 x3 x4)]
  unfold kernelRun1_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread,
    View.ld_unit_zero (S := S1x512x32x32) hz4, View.ld_unit_zero (S := S1x512) hz2,
    View.ld_unit_zero (S := S1024x512) hz2]

end Cert.KernelIdeal.Body

end
-- ==== Proof.Accum.lean ====
/-
  Each kernel's result arrays as closed recursions over the 16 grid points.

  An accumulator block is written back to its array once, after the last grid point, and the block is the whole array.
  So the array ends holding what the body left in the block at the last point, and that is, by induction on the point, the
  recursion "first point over the stored zeros, each later point over what the point before left". Stated for the
  statistics pass (two rows of 512 entries) and for the loss pass (one scalar), at any entry contents `V` of the pass.
-/
import proofs.«117637_j36034775613659_2_alg».proof.Proof.Gen.KernelIdeal.Frame
import proofs.«117637_j36034775613659_2_alg».proof.Proof.Body
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]
variable (V : (c : Dev nD) → (b : Ref sig .tc) → Buf (Elt F) ((c : Thread nD τ).loc b))

/-! ## The statistics pass -/

/-- The two accumulator rows after grid point `n`: the first point's value over the stored zeros, then each point's
    value over what the point before left. -/
def stats (c : Dev nD) : (n : ℕ) → n < cfg0.N → Vec F S1x512 .f32 × Vec F S1x512 .f32
  | 0, h => (k0_pay4 (iblk0 V c 0 ⟨0, h⟩) k0_pay2, k0_pay5 (iblk0 V c 0 ⟨0, h⟩) k0_pay3)
  | n + 1, h => (k0_pay4 (iblk0 V c 0 ⟨n + 1, h⟩) (stats c n (Nat.lt_of_succ_lt h)).1,
      k0_pay5 (iblk0 V c 0 ⟨n + 1, h⟩) (stats c n (Nat.lt_of_succ_lt h)).2)

/-- What the run leaves in the accumulator rows after point `n` is that recursion: induction on the point. -/
theorem outsAt0_eq (c : Dev nD) : ∀ (n : ℕ) (h : n < cfg0.N), outsAt0 V c n h = stats V c n h
  | 0, h => by
    rw [outsAt0_A V c ⟨0, h⟩ rfl, Body.sum_first, Body.sq_first]
    rfl
  | n + 1, h => by
    have hN : cfg0.N = 16 := N_0
    have hB : ¬(⟨n + 1, h⟩ : Fin cfg0.N).val % 16 = 0 := by dsimp only; omega
    rw [outsAt0_B V c ⟨n + 1, h⟩ hB, Body.sum_later, Body.sq_later]
    show (k0_pay4 _ (outsAt0 V c n _).1, k0_pay5 _ (outsAt0 V c n _).2) = _
    rw [outsAt0_eq c n]
    rfl

theorem lt15 : 15 < cfg0.N := by rw [show cfg0.N = 16 from N_0]; decide

/-- The per-feature sum of x as the result array of the statistics pass holds it: the first row after the last point. -/
abbrev sumRow (c : Dev nD) : Buf (Elt F) ((c : Thread nD τ).loc main_v0_0) := (stats V c 15 lt15).1
/-- The per-feature sum of x² likewise: the second row after the last point. -/
abbrev sqRow (c : Dev nD) : Buf (Elt F) ((c : Thread nD τ).loc main_v0_1) := (stats V c 15 lt15).2

theorem flushed_sum (c : Dev nD) (t : Fin cfg0.N) (hf : (cfg0.win 1).flush t = true) :
    (dat0 V c).flushed 1 t = ((cfg0.win 1).blk t).view.read (Elt F) (sumRow V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1, outsAt0_eq]
  have hz' : (fun a => win0_1.index t0_15 a * main_v0_0.ty.shape.size a) = fun _ => 0 := funext fun a => by fin_cases a <;> decide
  exact (Memref.read_access_unit_zero (Elt F) main_v0_0 hz' (fun a => by rw [congrFun hz' a]; simp) (sumRow V c)).symm

theorem flushed_sq (c : Dev nD) (t : Fin cfg0.N) (hf : (cfg0.win 2).flush t = true) :
    (dat0 V c).flushed 2 t = ((cfg0.win 2).blk t).view.read (Elt F) (sqRow V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outsAt0_eq]
  have hz' : (fun a => win0_2.index t0_15 a * main_v0_1.ty.shape.size a) = fun _ => 0 := funext fun a => by fin_cases a <;> decide
  exact (Memref.read_access_unit_zero (Elt F) main_v0_1 hz' (fun a => by rw [congrFun hz' a]; simp) (sqRow V c)).symm

/-- The first result array of the statistics pass ends holding the first accumulator row after the last point: the one
    write-back, at the last point, writes the whole one-block array. -/
theorem final_sum (c : Dev nD) : (dat0 V c).arrAt 1 cfg0.N = sumRow V c :=
  (dat0 V c).arrAt_eq_of_cover 1 (sumRow V c) (flushed_sum V c) fun i =>
    ⟨t0_15, (flush0_1 t0_15).mpr rfl, by
      show i ∈ ((View.whole main_v0_0).slice (win0_1.rect t0_15)).set
      rw [View.set_slice_whole, Rect.mem_set_unit]
      intro a
      have h0 : (i 0 : Nat) < 1 := (i 0).isLt
      have h1 : (i 1 : Nat) < 512 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 512 from by decide +kernel]; omega⟩

/-- The second result array likewise ends holding the second accumulator row after the last point. -/
theorem final_sq (c : Dev nD) : (dat0 V c).arrAt 2 cfg0.N = sqRow V c :=
  (dat0 V c).arrAt_eq_of_cover 2 (sqRow V c) (flushed_sq V c) fun i =>
    ⟨t0_15, (flush0_2 t0_15).mpr rfl, by
      show i ∈ ((View.whole main_v0_1).slice (win0_2.rect t0_15)).set
      rw [View.set_slice_whole, Rect.mem_set_unit]
      intro a
      have h0 : (i 0 : Nat) < 1 := (i 0).isLt
      have h1 : (i 1 : Nat) < 512 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 512 from by decide +kernel]; omega⟩

/-! ## The loss pass -/

/-- One grid point's contribution to the loss: the body's arithmetic on that point's five input blocks. -/
abbrev part (c : Dev nD) (t : Fin cfg1.N) : Vec F S1x1 .f32 :=
  k1_pay3 (iblk1 V c 0 t) (iblk1 V c 1 t) (iblk1 V c 2 t) (iblk1 V c 3 t) (iblk1 V c 4 t)

/-- The accumulator scalar after grid point `n`: the first point's contribution over the stored zero, then each
    point's contribution over what the point before left. -/
def acc (c : Dev nD) : (n : ℕ) → n < cfg1.N → Vec F S1x1 .f32
  | 0, h => k1_pay2 (part V c ⟨0, h⟩) k1_pay1
  | n + 1, h => k1_pay2 (part V c ⟨n + 1, h⟩) (acc c n (Nat.lt_of_succ_lt h))

/-- What the run leaves in the accumulator after point `n` is that recursion: induction on the point. -/
theorem outsAt1_eq (c : Dev nD) : ∀ (n : ℕ) (h : n < cfg1.N), outsAt1 V c n h = acc V c n h
  | 0, h => by
    rw [outsAt1_A V c ⟨0, h⟩ rfl, Body.loss_first]
    rfl
  | n + 1, h => by
    have hN : cfg1.N = 16 := N_1
    have hB : ¬(⟨n + 1, h⟩ : Fin cfg1.N).val % 16 = 0 := by dsimp only; omega
    rw [outsAt1_B V c ⟨n + 1, h⟩ hB, Body.loss_later]
    show k1_pay2 _ (outsAt1 V c n _) = _
    rw [outsAt1_eq c n]
    rfl

theorem lt15' : 15 < cfg1.N := by rw [show cfg1.N = 16 from N_1]; decide

/-- The summed loss as the result array of the loss pass holds it: the accumulator after the last point. -/
abbrev total (c : Dev nD) : Buf (Elt F) ((c : Thread nD τ).loc main_v5) := acc V c 15 lt15'

theorem flushed_total (c : Dev nD) (t : Fin cfg1.N) (hf : (cfg1.win 5).flush t = true) :
    (dat1 V c).flushed 5 t = ((cfg1.win 5).blk t).view.read (Elt F) (total V c) := by
  have hN : cfg1.N = 16 := N_1
  have h15 : t.val = 15 := by have := (flush1_5 t).mp hf; have := t.isLt; omega
  obtain rfl : t = t1_15 := Fin.ext h15
  show (cfg1.win 5).cut (grid1.coords t1_15) ((dat1 V c).after 5 t1_15) = _
  rw [after1_5, outsAt1_eq]
  have hz' : (fun a => win1_5.index t1_15 a * main_v5.ty.shape.size a) = fun _ => 0 := funext fun a => by fin_cases a <;> decide
  exact (Memref.read_access_unit_zero (Elt F) main_v5 hz' (fun a => by rw [congrFun hz' a]; simp) (total V c)).symm

/-- The result array of the loss pass ends holding the accumulator after the last point. -/
theorem final_total (c : Dev nD) : (dat1 V c).arrAt 5 cfg1.N = total V c :=
  (dat1 V c).arrAt_eq_of_cover 5 (total V c) (flushed_total V c) fun i =>
    ⟨t1_15, (flush1_5 t1_15).mpr rfl, by
      show i ∈ ((View.whole main_v5).slice (win1_5.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_5.index t1_15 0 * win1_5.size 0 ≤ (i 0 : Nat) ∧ (i 0 : Nat) < win1_5.index t1_15 0 * win1_5.size 0 + win1_5.xsize (grid1.coords t1_15) 0
                  rw [show win1_5.index t1_15 0 * win1_5.size 0 = 0 from by decide +kernel, show win1_5.xsize (grid1.coords t1_15) 0 = 1 from by decide +kernel]; omega
      | ⟨1, _⟩ => show win1_5.index t1_15 1 * win1_5.size 1 ≤ (i 1 : Nat) ∧ (i 1 : Nat) < win1_5.index t1_15 1 * win1_5.size 1 + win1_5.xsize (grid1.coords t1_15) 1
                  rw [show win1_5.index t1_15 1 * win1_5.size 1 = 0 from by decide +kernel, show win1_5.xsize (grid1.coords t1_15) 1 = 1 from by decide +kernel]; omega⟩

end Cert.KernelIdeal.Accum

end
-- ==== Proof.Entry.lean ====
/-
  What each pass finds in the buffers it reads, and what each host stretch computes.

  The program's buffers are followed through its four segments. The statistics pass reads x as launched; its two result
  arrays are its two accumulator rows after the last grid point. The first host stretch divides each row by the token
  count and touches no argument array, so the loss pass reads x, μ and logvar as launched and the two mean rows as just
  computed; its result array is its accumulator after the last grid point. The last host stretch drops the unit axes of
  that 1 × 1 array and divides by the token count.
  A window's block at grid point t sits at (block index × block size + the coordinate inside the block) along each axis.
  The image window's and the token windows' first block index is t, every other block index is 0: so the image block
  is image t of x, a token block is the rows 1024·t … 1024·t + 1023 of its array, and a mean row is read whole.
-/
import proofs.«117637_j36034775613659_2_alg».proof.Proof.Gen.KernelIdeal.Frame
import proofs.«117637_j36034775613659_2_alg».proof.Proof.Accum
import Idealize.ShloMosaic.Lib.StableHlo.Run
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Entry

open Cert.KernelIdeal Cert.KernelIdeal.Gen Idealize.ShloMosaic.StableHlo Idealize.ShloMosaic.ValueIdx

variable {F : FTy → Type} [FloatOps F]
variable (m : (ℓ : Loc nD τ sig) → Buf (Elt F) ℓ) (ρ : Dev nD → PrngReg)

/-! ## The host stretches -/

/-- The program's result: the loss pass's 1 × 1 result array without its unit axes, divided by the token count. -/
theorem out_eq (c : Dev nD) : W4 m ρ c (Proc.devRef .tc main_v7)
    = Host.divf (shapeCast S_ (V3 m ρ c main_v5) Facts₀.shapeCasts_S1x1_S_) (constant S_ .f32 0x46800000#32) := by
  show StableHlo.after hostOps2 (W3 m ρ c) (Proc.devRef .tc main_v7) = _
  after_results
  rfl

/-- The first mean row the loss pass is given: the statistics pass's first result array divided by the token count. -/
theorem mean1_eq (c : Dev nD) : V2 m ρ c main_v2
    = Host.divf (V1 m ρ c main_v0_0) (broadcastInDim S1x512 ![] Facts₀.bcast_S_S1x512 (constant S_ .f32 0x46800000#32)) := by
  show StableHlo.after hostOps1 (W1 m ρ c) (Proc.devRef .tc main_v2) = _
  after_results

/-- The second mean row likewise, from the second result array. -/
theorem mean2_eq (c : Dev nD) : V2 m ρ c main_v4
    = Host.divf (V1 m ρ c main_v0_1) (broadcastInDim S1x512 ![] Facts₀.bcast_S_S1x512 (constant S_ .f32 0x46800000#32)) := by
  show StableHlo.after hostOps1 (W1 m ρ c) (Proc.devRef .tc main_v4) = _
  after_results

/-- The result arrays of the two passes are the accumulators after the last grid point. -/
theorem sum_eq (c : Dev nD) : V1 m ρ c main_v0_0 = Accum.sumRow (V0 m ρ) c :=
  (W1_arr m ρ c 1).trans (Accum.final_sum (V0 m ρ) c)
theorem sq_eq (c : Dev nD) : V1 m ρ c main_v0_1 = Accum.sqRow (V0 m ρ) c :=
  (W1_arr m ρ c 2).trans (Accum.final_sq (V0 m ρ) c)
theorem total_eq (c : Dev nD) : V3 m ρ c main_v5 = Accum.total (V2 m ρ) c :=
  (W3_arr m ρ c 5).trans (Accum.final_total (V2 m ρ) c)

/-! ## The argument arrays as each pass finds them: unchanged -/

/-- No operation of the first host stretch writes an argument array. -/
theorem host1_keeps (c : Dev nD) (b : Ref sig .tc) (hb : b = main_arg0 ∨ b = main_arg1 ∨ b = main_arg2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      Finset.mem_singleton]
    rcases hb with rfl | rfl | rfl <;>
    · repeat' apply And.intro
      all_goals exact StableHlo.devRef_ne_of_ne (by decide)))

theorem x_at_stats (c : Dev nD) : V0 m ρ c main_arg0 = m ((c : Thread nD τ).loc main_arg0) := rfl

theorem x_at_loss (c : Dev nD) : V2 m ρ c main_arg0 = m ((c : Thread nD τ).loc main_arg0) :=
  (host1_keeps m ρ c main_arg0 (.inl rfl)).trans
    ((W1_arr m ρ c 0).trans (((dat0 (V0 m ρ) c).arrAt_in 0 rfl _).trans (A_eq0 (V0 m ρ) c 0)))
theorem mu_at_loss (c : Dev nD) : V2 m ρ c main_arg1 = m ((c : Thread nD τ).loc main_arg1) :=
  (host1_keeps m ρ c main_arg1 (.inr (.inl rfl))).trans (W1_of_ne m ρ c main_arg1 (by decide))
theorem lv_at_loss (c : Dev nD) : V2 m ρ c main_arg2 = m ((c : Thread nD τ).loc main_arg2) :=
  (host1_keeps m ρ c main_arg2 (.inr (.inr rfl))).trans (W1_of_ne m ρ c main_arg2 (by decide))

/-! ## The windows' blocks, read at an index of their arrays -/

section Blocks
variable (V : (c : Dev nD) → (b : Ref sig .tc) → Buf (Elt F) ((c : Thread nD τ).loc b))

/-- The block indices of each window at grid point `t`, decided once over the grid: the image and the token windows
    move along their first axis with the point, the mean rows never move. -/
theorem idx0_0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx1_0 : ∀ t : Fin cfg1.N, win1_0.index t 0 = t.val ∧ win1_0.index t 1 = 0 ∧ win1_0.index t 2 = 0 ∧ win1_0.index t 3 = 0 :=
  (by decide +kernel : ∀ t : Fin grid1.N, win1_0.index t 0 = t.val ∧ win1_0.index t 1 = 0 ∧ win1_0.index t 2 = 0 ∧ win1_0.index t 3 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = t.val ∧ win1_2.index t 1 = 0 :=
  (by decide +kernel : ∀ t : Fin grid1.N, win1_2.index t 0 = t.val ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)

/-- Token `r` of image `t`, as a row of the [16384, 512] arrays. -/
abbrev tokenOf (t : Fin 16) (r : Fin 1024) : Fin 16384 := ⟨t.val * 1024 + r.val, by have := t.isLt; have := r.isLt; omega⟩

/-- The statistics pass's image block at point `t` is image `t` of x. -/
theorem blk0_x (c : Dev nD) (t : Fin cfg0.N) (d : Fin 512) (h w : Fin 32) :
    (iblk0 V c 0 t : Vec F S1x512x32x32 .f32) (ix4 (0 : Fin 1) d h w) = V c main_arg0 (ix4 (Fin.cast N_0 t) d h w) := by
  unfold iblk0
  rw [View.read_apply]
  show V c main_arg0 _ = V c main_arg0 _
  refine congrArg (V c main_arg0) (funext fun a => Fin.ext ?_)
  obtain ⟨i0, i1, i2, i3⟩ := idx0_0 t
  match a with
  | ⟨0, _⟩ => show win0_0.index t 0 * 1 + 1 * ((0 : Fin 1) : ℕ) = t.val; rw [i0]; simp
  | ⟨1, _⟩ => show win0_0.index t 1 * 512 + 1 * d.val = d.val; rw [i1]; omega
  | ⟨2, _⟩ => show win0_0.index t 2 * 32 + 1 * h.val = h.val; rw [i2]; omega
  | ⟨3, _⟩ => show win0_0.index t 3 * 32 + 1 * w.val = w.val; rw [i3]; omega

/-- The loss pass's image block at point `t` is image `t` of x. -/
theorem blk1_x (c : Dev nD) (t : Fin cfg1.N) (d : Fin 512) (h w : Fin 32) :
    (iblk1 V c 0 t : Vec F S1x512x32x32 .f32) (ix4 (0 : Fin 1) d h w) = V c main_arg0 (ix4 (Fin.cast N_1 t) d h w) := by
  unfold iblk1
  rw [View.read_apply]
  show V c main_arg0 _ = V c main_arg0 _
  refine congrArg (V c main_arg0) (funext fun a => Fin.ext ?_)
  obtain ⟨i0, i1, i2, i3⟩ := idx1_0 t
  match a with
  | ⟨0, _⟩ => show win1_0.index t 0 * 1 + 1 * ((0 : Fin 1) : ℕ) = t.val; rw [i0]; simp
  | ⟨1, _⟩ => show win1_0.index t 1 * 512 + 1 * d.val = d.val; rw [i1]; omega
  | ⟨2, _⟩ => show win1_0.index t 2 * 32 + 1 * h.val = h.val; rw [i2]; omega
  | ⟨3, _⟩ => show win1_0.index t 3 * 32 + 1 * w.val = w.val; rw [i3]; omega

/-- The loss pass's μ block at point `t` is the 1024 token rows of image `t`. -/
theorem blk1_mu (c : Dev nD) (t : Fin cfg1.N) (r : Fin 1024) (d : Fin 512) :
    (iblk1 V c 1 t : Vec F S1024x512 .f32) (ix2 r d) = V c main_arg1 (ix2 (tokenOf (Fin.cast N_1 t) r) d) := by
  unfold iblk1
  rw [View.read_apply]
  show V c main_arg1 _ = V c main_arg1 _
  refine congrArg (V c main_arg1) (funext fun a => Fin.ext ?_)
  obtain ⟨i0, i1⟩ := idx1_1 t
  match a with
  | ⟨0, _⟩ => show win1_1.index t 0 * 1024 + 1 * r.val = t.val * 1024 + r.val; rw [i0]; omega
  | ⟨1, _⟩ => show win1_1.index t 1 * 512 + 1 * d.val = d.val; rw [i1]; omega

/-- The loss pass's logvar block at point `t` likewise. -/
theorem blk1_lv (c : Dev nD) (t : Fin cfg1.N) (r : Fin 1024) (d : Fin 512) :
    (iblk1 V c 2 t : Vec F S1024x512 .f32) (ix2 r d) = V c main_arg2 (ix2 (tokenOf (Fin.cast N_1 t) r) d) := by
  unfold iblk1
  rw [View.read_apply]
  show V c main_arg2 _ = V c main_arg2 _
  refine congrArg (V c main_arg2) (funext fun a => Fin.ext ?_)
  obtain ⟨i0, i1⟩ := idx1_2 t
  match a with
  | ⟨0, _⟩ => show win1_2.index t 0 * 1024 + 1 * r.val = t.val * 1024 + r.val; rw [i0]; omega
  | ⟨1, _⟩ => show win1_2.index t 1 * 512 + 1 * d.val = d.val; rw [i1]; omega

/-- The two mean rows are read whole at every point. -/
theorem blk1_m1 (c : Dev nD) (t : Fin cfg1.N) (d : Fin 512) :
    (iblk1 V c 3 t : Vec F S1x512 .f32) (ix2 (0 : Fin 1) d) = V c main_v2 (ix2 (0 : Fin 1) d) := by
  unfold iblk1
  rw [View.read_apply]
  show V c main_v2 _ = V c main_v2 _
  refine congrArg (V c main_v2) (funext fun a => Fin.ext ?_)
  obtain ⟨i0, i1⟩ := idx1_3 t
  match a with
  | ⟨0, _⟩ => show win1_3.index t 0 * 1 + 1 * ((0 : Fin 1) : ℕ) = 0; rw [i0]; simp
  | ⟨1, _⟩ => show win1_3.index t 1 * 512 + 1 * d.val = d.val; rw [i1]; omega

theorem blk1_m2 (c : Dev nD) (t : Fin cfg1.N) (d : Fin 512) :
    (iblk1 V c 4 t : Vec F S1x512 .f32) (ix2 (0 : Fin 1) d) = V c main_v4 (ix2 (0 : Fin 1) d) := by
  unfold iblk1
  rw [View.read_apply]
  show V c main_v4 _ = V c main_v4 _
  refine congrArg (V c main_v4) (funext fun a => Fin.ext ?_)
  obtain ⟨i0, i1⟩ := idx1_4 t
  match a with
  | ⟨0, _⟩ => show win1_4.index t 0 * 1 + 1 * ((0 : Fin 1) : ℕ) = 0; rw [i0]; simp
  | ⟨1, _⟩ => show win1_4.index t 1 * 512 + 1 * d.val = d.val; rw [i1]; omega

end Blocks

end Cert.KernelIdeal.Entry

end
-- ==== Proof.LibFinSum.lean ====
/-
  A sum over `Fin (m * n)` as a double sum over quotient and remainder.

  Every `i < m * n` is `a * n + b` for exactly one pair `a < m`, `b < n`, so in any commutative monoid the sum of `f` over
  `Fin (m * n)` is the sum over `a` of the sum over `b` of `f (a * n + b)`. This is the only re-indexing a tiled sum needs.
-/
import Mathlib.Algebra.BigOperators.Fin
import Mathlib.Logic.Equiv.Fin.Basic

open scoped BigOperators

namespace Cert.FinSum

/-- `a * n + b < m * n` for `a < m`, `b < n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The sum over `Fin k`, `k = m * n`, is the sum over quotients `a` of the sum over remainders `b` at `a * n + b`. -/
theorem sum_mul {M : Type*} [AddCommMonoid M] (m n k : ℕ) (hk : m * n = k) (f : Fin k → M) :
    ∑ i : Fin k, f i = ∑ a : Fin m, ∑ b : Fin n, f ⟨a.val * n + b.val, hk ▸ lt_mul a b⟩ := by
  subst hk
  rw [← finProdFinEquiv.sum_comp, Fintype.sum_prod_type]
  refine Finset.sum_congr rfl fun a _ => Finset.sum_congr rfl fun b _ => congrArg f (Fin.ext ?_)
  show b.val + n * a.val = a.val * n + b.val
  rw [Nat.mul_comm, Nat.add_comm]

/-- A sequence built by "start from `z` plus the first term, then add one more term at each step" is, at step `n`,
    `z` plus the sum of the first `n + 1` terms. -/
theorem sum_of_steps {M : Type*} [AddCommMonoid M] (N : ℕ) (a : (n : ℕ) → n < N → M) (p : Fin N → M) (z : M)
    (h0 : ∀ h : 0 < N, a 0 h = z + p ⟨0, h⟩)
    (hs : ∀ (n : ℕ) (h : n + 1 < N), a (n + 1) h = a n (Nat.lt_of_succ_lt h) + p ⟨n + 1, h⟩) :
    ∀ (n : ℕ) (h : n < N), a n h = z + ∑ t : Fin (n + 1), p ⟨t.val, lt_of_lt_of_le t.isLt h⟩
  | 0, h => by
    rw [h0 h, Fin.sum_univ_one]
    rfl
  | n + 1, h => by
    rw [hs n h, sum_of_steps N a p z h0 hs n (Nat.lt_of_succ_lt h), add_assoc]
    refine congrArg (z + ·) ?_
    exact (Fin.sum_univ_castSucc (fun t : Fin (n + 1 + 1) => p ⟨t.val, lt_of_lt_of_le t.isLt h⟩)).symm

end Cert.FinSum
-- ==== Proof.Spec.lean ====
/-
  The loss, as one function of the three argument arrays over the extended reals.

  x has shape [16, 512, 32, 32] (image, feature, row, column); μ and logvar have shape [16384, 512] (token, feature).
  Token n = 1024·b + 32·h + w of feature d is x[b, d, h, w]. With N = 16384 tokens,
      m₁[d] = (Σₙ x[n, d]) / N,   m₂[d] = (Σₙ x[n, d]²) / N,
      termₙ = −½ · Σ_d (x[n, d] − μ[n, d])² · exp(−logvar[n, d])
              − (−½) · Σ_d (m₂[d] − 2·μ[n, d]·m₁[d] + μ[n, d]²) · exp(−logvar[n, d]),
      loss = (Σₙ termₙ) / N.
  The four float literals (0, −½, 2, N) are kept as their binary words: the same word appears on both sides of every
  equation and is never evaluated, except that the zero word is the extended real 0.

  Besides the definitions this module holds the regroupings of the three token sums by image (16 blocks of 1024 tokens)
  and, inside an image, by row and column (32 × 32): addition on the extended reals is commutative and associative, so a
  sum may be regrouped freely — no finiteness of any entry is used anywhere.
-/
import Idealize.ShloMosaic.Lib.ValueIdx
import Idealize.ShloMosaic.PureOps.Ideal.Laws
import proofs.«117637_j36034775613659_2_alg».proof.Proof.LibFinSum

noncomputable section

open scoped BigOperators

namespace Cert.Club

open Idealize.ShloMosaic Idealize.ShloMosaic.ValueIdx

/-- x's index set, [16, 512, 32, 32]. -/
abbrev SX : Shape := ⟨4, ![16, 512, 32, 32]⟩
/-- μ's and logvar's index set, [16384, 512]. -/
abbrev SP : Shape := ⟨2, ![16384, 512]⟩

/-- The float literals of both programs, as their binary words. -/
abbrev zeroW : EReal := Ideal.ofBits .f32 0x00000000#32
abbrev halfW : EReal := Ideal.ofBits .f32 0xBF000000#32
abbrev twoW : EReal := Ideal.ofBits .f32 0x40000000#32
abbrev cntW : EReal := Ideal.ofBits .f32 0x46800000#32

/-- The zero word is the extended real zero. -/
theorem zeroW_eq : zeroW = 0 := Ideal.ofBits_zero_f32

/-- Subtracting from the zero word negates. -/
theorem zeroW_sub (a : EReal) : zeroW - a = -a := by
  rw [zeroW_eq, sub_eq_add_neg, zero_add]

/-- Adding to the zero word does nothing. -/
theorem zeroW_add (a : EReal) : zeroW + a = a := by
  rw [zeroW_eq, zero_add]

/-- Token `n`'s feature `d` of x: image `n / 1024`, row `(n / 32) % 32`, column `n % 32`. -/
def tok (X : SX.Idx → EReal) (n : Fin 16384) (d : Fin 512) : EReal :=
  X (ix4 (⟨n.val / 1024, by have := n.isLt; omega⟩ : Fin 16) d
    (⟨n.val / 32 % 32, Nat.mod_lt _ (by decide)⟩ : Fin 32) (⟨n.val % 32, Nat.mod_lt _ (by decide)⟩ : Fin 32))

/-- Σₙ x[n, d]. -/
def colSum (X : SX.Idx → EReal) (d : Fin 512) : EReal := ∑ k : Fin 16384, tok X k d
/-- Σₙ x[n, d]². -/
def colSq (X : SX.Idx → EReal) (d : Fin 512) : EReal := ∑ k : Fin 16384, tok X k d * tok X k d

/-- One (token, feature) summand of the first sum: (x − μ)² · exp(−logvar). -/
def posAt (xv mu lv : EReal) : EReal := (xv - mu) * (xv - mu) * Ideal.exp (-lv)
/-- One (token, feature) summand of the second sum: (m₂ − 2·μ·m₁ + μ²) · exp(−logvar). -/
def negAt (m1 m2 mu lv : EReal) : EReal := (m2 - twoW * mu * m1 + mu * mu) * Ideal.exp (-lv)

/-- Token `n`'s term, given the two per-feature means. -/
def termOf (X : SX.Idx → EReal) (MU LV : SP.Idx → EReal) (m1 m2 : Fin 512 → EReal) (n : Fin 16384) : EReal :=
  halfW * (∑ d : Fin 512, posAt (tok X n d) (MU (ix2 n d)) (LV (ix2 n d)))
    - halfW * (∑ d : Fin 512, negAt (m1 d) (m2 d) (MU (ix2 n d)) (LV (ix2 n d)))

/-- The loss. -/
def loss (X : SX.Idx → EReal) (MU LV : SP.Idx → EReal) : EReal :=
  Ideal.div (∑ n : Fin 16384,
    termOf X MU LV (fun d => Ideal.div (colSum X d) cntW) (fun d => Ideal.div (colSq X d) cntW) n) cntW

/-! ## Regrouping the token sums by image, row and column -/

/-- Token `1024·b + r` is image `b`'s row `r / 32`, column `r % 32`. -/
theorem tok_block (X : SX.Idx → EReal) (b : Fin 16) (r : Fin 1024) (d : Fin 512) (h : b.val * 1024 + r.val < 16384) :
    tok X ⟨b.val * 1024 + r.val, h⟩ d
      = X (ix4 b d (⟨r.val / 32, by have := r.isLt; omega⟩ : Fin 32) (⟨r.val % 32, Nat.mod_lt _ (by decide)⟩ : Fin 32)) := by
  unfold tok
  refine congrArg X (funext fun a => ?_)
  have hb := b.isLt
  have hr := r.isLt
  match a with
  | ⟨0, _⟩ => exact Fin.ext (by show (b.val * 1024 + r.val) / 1024 = b.val; omega)
  | ⟨1, _⟩ => rfl
  | ⟨2, _⟩ => exact Fin.ext (by show (b.val * 1024 + r.val) / 32 % 32 = r.val / 32; omega)
  | ⟨3, _⟩ => exact Fin.ext (by show (b.val * 1024 + r.val) % 32 = r.val % 32; omega)

/-- A sum over the 16384 tokens is the sum over the 16 images of the sum over each image's 1024 tokens. -/
theorem sum_tokens {M : Type*} [AddCommMonoid M] (g : Fin 16384 → M) :
    ∑ n : Fin 16384, g n = ∑ b : Fin 16, ∑ r : Fin 1024, g ⟨b.val * 1024 + r.val, Cert.FinSum.lt_mul b r⟩ :=
  Cert.FinSum.sum_mul 16 1024 16384 (by decide) g

/-- A sum over an image's 1024 tokens is the sum over its 32 rows of the sum over each row's 32 columns. -/
theorem sum_rows {M : Type*} [AddCommMonoid M] (g : Fin 1024 → M) :
    ∑ r : Fin 1024, g r = ∑ h : Fin 32, ∑ w : Fin 32, g ⟨h.val * 32 + w.val, Cert.FinSum.lt_mul h w⟩ :=
  Cert.FinSum.sum_mul 32 32 1024 (by decide) g

/-- A per-feature sum over all tokens of any function of the entry is the same sum taken image by image, and inside
    an image row by row and column by column. -/
theorem col_blocks (X : SX.Idx → EReal) (f : EReal → EReal) (d : Fin 512) :
    ∑ k : Fin 16384, f (tok X k d) = ∑ b : Fin 16, ∑ h : Fin 32, ∑ w : Fin 32, f (X (ix4 b d h w)) := by
  rw [sum_tokens]
  refine Finset.sum_congr rfl fun b _ => ?_
  rw [sum_rows]
  refine Finset.sum_congr rfl fun h _ => Finset.sum_congr rfl fun w _ => ?_
  have hh := h.isLt
  have hw := w.isLt
  rw [tok_block X b ⟨h.val * 32 + w.val, Cert.FinSum.lt_mul h w⟩ d]
  refine congrArg f (congrArg X (funext fun a => ?_))
  match a with
  | ⟨0, _⟩ => rfl
  | ⟨1, _⟩ => rfl
  | ⟨2, _⟩ => exact Fin.ext (by show (h.val * 32 + w.val) / 32 = h.val; omega)
  | ⟨3, _⟩ => exact Fin.ext (by show (h.val * 32 + w.val) % 32 = w.val; omega)

end Cert.Club

end
-- ==== Proof.Payload.lean ====
/-
  The two kernel bodies' arithmetic, read entry by entry over the extended reals.

  Statistics body: the image block [1, 512, 32, 32] loses its unit axis, is summed over columns and then over rows, and
  the resulting 512 per-feature sums are added to the accumulator row; the same for the squared block.
  Loss body: the image block is transposed to (row, column, feature) and flattened to 1024 tokens × 512 features, so
  token r of the block is row r / 32, column r % 32; each token's two feature sums are taken, scaled by −½ and
  subtracted, and the 1024 differences are summed into one scalar that is added to the accumulator.
  Each layout operation is read at an index once, over variables of the literal vector types; the two bodies' values
  at an index then follow by reading their pointwise operations through.
-/
import proofs.«117637_j36034775613659_2_alg».proof.Proof.Gen.KernelIdeal.Skeleton
import proofs.«117637_j36034775613659_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

open scoped BigOperators

namespace Cert.KernelIdeal.Payload

open Cert.KernelIdeal Cert.KernelIdeal.Gen Idealize.ShloMosaic.ValueIdx Cert.Club

/-! ## Layout operations of the two bodies, read at an index -/

/-- Dropping the leading unit axis of an image block: entry (d, h, w) is entry (0, d, h, w). -/
theorem unbatch_apply {α : Type} (x : S1x512x32x32.Idx → α) (hs : S1x512x32x32.ShapeCasts S512x32x32)
    (d : Fin 512) (h w : Fin 32) : shapeCast S512x32x32 x hs (ix3 d h w) = x (ix4 (0 : Fin 1) d h w) := by
  refine shapeCast_apply x hs (ix3 d h w) (ix4 (0 : Fin 1) d h w) ?_
  rw [Shape.rowMajor_val_four, Shape.rowMajor_val_three]
  show ((0 * 512 + d.val) * 32 + h.val) * 32 + w.val = (d.val * 32 + h.val) * 32 + w.val
  omega

/-- The sum over columns, then over rows, of a [512, 32, 32] vector, re-shaped to one row of 512 entries: entry (0, d)
    is the sum over rows h and columns w of entry (d, h, w). -/
theorem featsum_apply (u : FVec Ideal S512x32x32 .f32) (hr2 : S512x32x32.Reduces [2] S512x32) (hr1 : S512x32.Reduces [1] S512)
    (hφ hφ' : FKind.Formats .f32) (hacc : (0x00000000#32 : BitVec 32) = FKind.add.neutral .f32 hφ)
    (hacc' : (0x00000000#32 : BitVec 32) = FKind.add.neutral .f32 hφ') (hs : S512.ShapeCasts S1x512) (d : Fin 512) :
    shapeCast S1x512 (multiReduction .add [1] S512 (multiReduction .add [2] S512x32 u 0x00000000#32 hr2 hφ hacc)
        0x00000000#32 hr1 hφ' hacc') hs (ix2 (0 : Fin 1) d)
      = ∑ h : Fin 32, ∑ w : Fin 32, u (ix3 d h w) := by
  refine (shapeCast_apply _ hs (ix2 (0 : Fin 1) d) (ix1 d) ?_).trans ?_
  · rw [Shape.rowMajor_val_one, Shape.rowMajor_val_two]
    show d.val = 0 * 512 + d.val
    omega
  refine (Ideal.multiReduction_add_single _ _ hr1 hφ' hacc' (ix1 d)).trans ?_
  refine Finset.sum_congr rfl fun h _ => ?_
  refine (Ideal.multiReduction_add_single u _ hr2 hφ hacc _).trans ?_
  refine Finset.sum_congr rfl fun w _ => congrArg u (funext fun a => ?_)
  match a with
  | ⟨0, _⟩ => rfl
  | ⟨1, _⟩ => rfl
  | ⟨2, _⟩ => rfl

/-! ## The statistics body -/

/-- The first accumulator row after a point: what it held, plus the sum of the image block over rows and columns. -/
theorem sum_apply (x : Vec Ideal S1x512x32x32 .f32) (acc : Vec Ideal S1x512 .f32) (d : Fin 512) :
    k0_pay4 x acc (ix2 (0 : Fin 1) d) = acc (ix2 (0 : Fin 1) d) + ∑ h : Fin 32, ∑ w : Fin 32, x (ix4 (0 : Fin 1) d h w) := by
  unfold k0_pay4 k0_pay1
  show (shapeCast S1x512 acc _) (ix2 (0 : Fin 1) d) + _ = _
  rw [shapeCast_self]
  refine congrArg (acc (ix2 (0 : Fin 1) d) + ·) ((featsum_apply _ _ _ _ _ _ _ _ d).trans ?_)
  exact Finset.sum_congr rfl fun h _ => Finset.sum_congr rfl fun w _ => unbatch_apply x _ d h w

/-- The second accumulator row after a point: what it held, plus the sum of the squared image block. -/
theorem sq_apply (x : Vec Ideal S1x512x32x32 .f32) (acc : Vec Ideal S1x512 .f32) (d : Fin 512) :
    k0_pay5 x acc (ix2 (0 : Fin 1) d)
      = acc (ix2 (0 : Fin 1) d) + ∑ h : Fin 32, ∑ w : Fin 32, x (ix4 (0 : Fin 1) d h w) * x (ix4 (0 : Fin 1) d h w) := by
  unfold k0_pay5 k0_pay1
  show (shapeCast S1x512 acc _) (ix2 (0 : Fin 1) d) + _ = _
  rw [shapeCast_self]
  refine congrArg (acc (ix2 (0 : Fin 1) d) + ·) ((featsum_apply _ _ _ _ _ _ _ _ d).trans ?_)
  refine Finset.sum_congr rfl fun h _ => Finset.sum_congr rfl fun w _ => ?_
  show shapeCast S512x32x32 x _ (ix3 d h w) * shapeCast S512x32x32 x _ (ix3 d h w) = _
  rw [unbatch_apply]

/-- The zero rows the first point stores. -/
theorem zero_row_apply (j : S1x512.Idx) : (k0_pay2 (F := Ideal)) j = zeroW := rfl
theorem zero_row_apply' (j : S1x512.Idx) : (k0_pay3 (F := Ideal)) j = zeroW := rfl

/-! ## The loss body -/

/-- The image block transposed to (row, column, feature) and flattened to (token, feature): token r of the block is
    row r / 32, column r % 32. -/
theorem flat_apply (x : Vec Ideal S1x512x32x32 .f32) (h1 : S1x512x32x32.ShapeCasts S512x32x32)
    (h2 : S512x32x32.Transposes [1, 2, 0] S32x32x512) (h3 : S32x32x512.ShapeCasts S1024x512) (r : Fin 1024) (d : Fin 512) :
    shapeCast S1024x512 (transpose S32x32x512 [1, 2, 0] (shapeCast S512x32x32 x h1) h2) h3 (ix2 r d)
      = x (ix4 (0 : Fin 1) d (⟨r.val / 32, by have := r.isLt; omega⟩ : Fin 32) (⟨r.val % 32, Nat.mod_lt _ (by decide)⟩ : Fin 32)) := by
  have hr := r.isLt
  refine (shapeCast_apply _ h3 (ix2 r d)
    (ix3 (⟨r.val / 32, by omega⟩ : Fin 32) (⟨r.val % 32, Nat.mod_lt _ (by decide)⟩ : Fin 32) d) ?_).trans ?_
  · rw [Shape.rowMajor_val_three, Shape.rowMajor_val_two]
    show (r.val / 32 * 32 + r.val % 32) * 512 + d.val = r.val * 512 + d.val
    omega
  refine (transpose_apply [1, 2, 0] _ h2 _
    (ix3 d (⟨r.val / 32, by omega⟩ : Fin 32) (⟨r.val % 32, Nat.mod_lt _ (by decide)⟩ : Fin 32))
    (fun b => match b with | ⟨0, _⟩ => rfl | ⟨1, _⟩ => rfl | ⟨2, _⟩ => rfl)).trans ?_
  exact unbatch_apply x h1 d _ _

/-- The sum over features, kept as a column: entry (r, 0) is the sum over d of entry (r, d). -/
theorem rowsum_apply (v : FVec Ideal S1024x512 .f32) (hred : S1024x512.Reduces [1] S1024) (hφ : FKind.Formats .f32)
    (hacc : (0x00000000#32 : BitVec 32) = FKind.add.neutral .f32 hφ) (hs : S1024.ShapeCasts S1024x1) (r : Fin 1024) :
    shapeCast S1024x1 (multiReduction .add [1] S1024 v 0x00000000#32 hred hφ hacc) hs (ix2 r (0 : Fin 1))
      = ∑ d : Fin 512, v (ix2 r d) := by
  refine (shapeCast_apply _ hs (ix2 r (0 : Fin 1)) (ix1 r) ?_).trans ?_
  · rw [Shape.rowMajor_val_one, Shape.rowMajor_val_two]
    show r.val = r.val * 1 + 0
    omega
  refine (Ideal.multiReduction_add_single v _ hred hφ hacc (ix1 r)).trans ?_
  refine Finset.sum_congr rfl fun d _ => congrArg v (funext fun a => ?_)
  match a with
  | ⟨0, _⟩ => rfl
  | ⟨1, _⟩ => rfl

/-- A row of 512 entries repeated over the 1024 tokens: entry (r, d) is entry (0, d). -/
theorem rep_apply (v : Vec Ideal S1x512 .f32) (hs : S1x512.ShapeCasts S1x512) (hb : S1x512.Broadcasts S1024x512)
    (r : Fin 1024) (d : Fin 512) :
    broadcastTo S1024x512 (shapeCast S1x512 v hs) hb (ix2 r d) = v (ix2 (0 : Fin 1) d) := by
  rw [shapeCast_self]
  refine broadcastTo_apply v hb (ix2 r d) (ix2 (0 : Fin 1) d) fun a => ?_
  match a with
  | ⟨0, _⟩ => show 0 = if (1 : Nat) = 1 then 0 else _; rw [if_pos rfl]
  | ⟨1, _⟩ => show d.val = if (512 : Nat) = 1 then 0 else d.val; rw [if_neg (by decide)]

/-- The sum of a column of 1024 entries, kept as a 1 × 1 block: its one entry is the sum over the tokens. -/
theorem colsum_apply (v : FVec Ideal S1024x1 .f32) (hred : S1024x1.Reduces [0] S1) (hφ : FKind.Formats .f32)
    (hacc : (0x00000000#32 : BitVec 32) = FKind.add.neutral .f32 hφ) (hs : S1.ShapeCasts S1x1) :
    shapeCast S1x1 (multiReduction .add [0] S1 v 0x00000000#32 hred hφ hacc) hs (ix2 (0 : Fin 1) (0 : Fin 1))
      = ∑ r : Fin 1024, v (ix2 r (0 : Fin 1)) := by
  refine (shapeCast_apply _ hs (ix2 (0 : Fin 1) (0 : Fin 1)) (ix1 (0 : Fin 1)) ?_).trans ?_
  · rw [Shape.rowMajor_val_one, Shape.rowMajor_val_two]
    rfl
  refine (Ideal.multiReduction_add_single v _ hred hφ hacc (ix1 (0 : Fin 1))).trans ?_
  refine Finset.sum_congr rfl fun r _ => congrArg v (funext fun a => ?_)
  match a with
  | ⟨0, _⟩ => rfl
  | ⟨1, _⟩ => rfl

/-- One grid point's contribution to the loss: over the block's 1024 tokens, −½ times the first feature sum minus −½
    times the second, with the two means read from the two rows the pass is given. -/
theorem part_apply (x : Vec Ideal S1x512x32x32 .f32) (mu lv : Vec Ideal S1024x512 .f32) (m1 m2 : Vec Ideal S1x512 .f32) :
    k1_pay3 x mu lv m1 m2 (ix2 (0 : Fin 1) (0 : Fin 1))
      = ∑ r : Fin 1024,
          (halfW * (∑ d : Fin 512, posAt (x (ix4 (0 : Fin 1) d (⟨r.val / 32, by have := r.isLt; omega⟩ : Fin 32)
              (⟨r.val % 32, Nat.mod_lt _ (by decide)⟩ : Fin 32))) (mu (ix2 r d)) (lv (ix2 r d)))
            - halfW * (∑ d : Fin 512, negAt (m1 (ix2 (0 : Fin 1) d)) (m2 (ix2 (0 : Fin 1) d)) (mu (ix2 r d)) (lv (ix2 r d)))) := by
  unfold k1_pay3
  refine (colsum_apply _ _ _ _ _).trans (Finset.sum_congr rfl fun r _ => ?_)
  show halfW * (shapeCast S1024x1 _ _ (ix2 r (0 : Fin 1))) - halfW * (shapeCast S1024x1 _ _ (ix2 r (0 : Fin 1))) = _
  refine congrArg₂ (fun a b => halfW * a - halfW * b)
    ((rowsum_apply _ _ _ _ _ r).trans (Finset.sum_congr rfl fun d _ => ?_))
    ((rowsum_apply _ _ _ _ _ r).trans (Finset.sum_congr rfl fun d _ => ?_))
  · show (shapeCast S1024x512 _ _ (ix2 r d) - mu (ix2 r d)) * (shapeCast S1024x512 _ _ (ix2 r d) - mu (ix2 r d))
        * Ideal.exp (zeroW - lv (ix2 r d)) = _
    rw [flat_apply, zeroW_sub]
    rfl
  · show (broadcastTo S1024x512 _ _ (ix2 r d) - twoW * mu (ix2 r d) * broadcastTo S1024x512 _ _ (ix2 r d)
        + mu (ix2 r d) * mu (ix2 r d)) * Ideal.exp (zeroW - lv (ix2 r d)) = _
    rw [rep_apply, rep_apply, zeroW_sub]
    rfl

/-- The accumulator scalar after a point: what it held plus the point's contribution. -/
theorem acc_apply (p acc : Vec Ideal S1x1 .f32) (j : S1x1.Idx) : k1_pay2 p acc j = acc j + p j := by
  unfold k1_pay2
  show (shapeCast S1x1 acc _) j + p j = _
  rw [shapeCast_self]

/-- The zero the first point stores. -/
theorem zero_cell_apply (j : S1x1.Idx) : (k1_pay1 (F := Ideal)) j = zeroW := rfl

end Cert.KernelIdeal.Payload

end
-- ==== Proof.KernelLoss.lean ====
/-
  The idealized kernel's result is the loss.

  Over the extended reals. The statistics pass's two rows are, feature by feature, the zero word plus the 16 images'
  sums over rows and columns of x (of x²): regrouped, the sum over all 16384 tokens. Divided by the token count these are
  the two means the loss is defined over. The loss pass's scalar is the zero word plus the 16 images' contributions, each
  the sum of its 1024 tokens' terms: regrouped, the sum of all 16384 terms. The last host stretch divides by the token
  count. Nothing but commutativity and associativity of addition, and 0 + a = a, is used.
-/
import proofs.«117637_j36034775613659_2_alg».proof.Proof.Gen.KernelIdeal.Frame
import proofs.«117637_j36034775613659_2_alg».proof.Proof.Accum
import proofs.«117637_j36034775613659_2_alg».proof.Proof.Entry
import proofs.«117637_j36034775613659_2_alg».proof.Proof.Payload
import proofs.«117637_j36034775613659_2_alg».proof.Proof.Spec
import proofs.«117637_j36034775613659_2_alg».proof.Proof.LibFinSum
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

open scoped BigOperators

namespace Cert.KernelIdeal.Loss

open Cert.KernelIdeal Cert.KernelIdeal.Gen Idealize.ShloMosaic.ValueIdx Cert.Club

variable (m : (ℓ : Loc nD τ sig) → Buf (Elt Ideal) ℓ) (ρ : Dev nD → PrngReg)

/-- The three argument arrays as launched. -/
abbrev argX (c : Dev nD) : SX.Idx → EReal := m ((c : Thread nD τ).loc main_arg0)
abbrev argMu (c : Dev nD) : SP.Idx → EReal := m ((c : Thread nD τ).loc main_arg1)
abbrev argLv (c : Dev nD) : SP.Idx → EReal := m ((c : Thread nD τ).loc main_arg2)

/-- The two per-feature means, as the loss is defined over them. -/
abbrev mean1 (c : Dev nD) (d : Fin 512) : EReal := Ideal.div (colSum (argX m c) d) cntW
abbrev mean2 (c : Dev nD) (d : Fin 512) : EReal := Ideal.div (colSq (argX m c) d) cntW

/-- The image block the statistics pass reads at grid point `t`. -/
abbrev imgAt (c : Dev nD) (t : Fin cfg0.N) : Vec Ideal S1x512x32x32 .f32 := iblk0 (V0 m ρ) c 0 t

/-! ## The statistics pass: the two rows are the per-feature sums over all tokens -/

theorem sumRow_apply (c : Dev nD) (d : Fin 512) :
    Accum.sumRow (V0 m ρ) c (ix2 (0 : Fin 1) d) = colSum (argX m c) d := by
  have hsteps := Cert.FinSum.sum_of_steps cfg0.N
    (fun n h => (Accum.stats (V0 m ρ) c n h).1 (ix2 (0 : Fin 1) d))
    (fun t => ∑ h : Fin 32, ∑ w : Fin 32, imgAt m ρ c t (ix4 (0 : Fin 1) d h w)) zeroW
    (fun h => Payload.sum_apply (imgAt m ρ c ⟨0, h⟩) _ d)
    (fun n h => Payload.sum_apply (imgAt m ρ c ⟨n + 1, h⟩) _ d)
    15 Accum.lt15
  show (Accum.stats (V0 m ρ) c 15 Accum.lt15).1 (ix2 (0 : Fin 1) d) = _
  rw [hsteps, zeroW_add]
  unfold colSum
  refine Eq.trans ?_ (col_blocks (argX m c) id d).symm
  refine Finset.sum_congr rfl fun t _ => Finset.sum_congr rfl fun h _ => Finset.sum_congr rfl fun w _ => ?_
  exact Entry.blk0_x (V0 m ρ) c _ d h w

theorem sqRow_apply (c : Dev nD) (d : Fin 512) :
    Accum.sqRow (V0 m ρ) c (ix2 (0 : Fin 1) d) = colSq (argX m c) d := by
  have hsteps := Cert.FinSum.sum_of_steps cfg0.N
    (fun n h => (Accum.stats (V0 m ρ) c n h).2 (ix2 (0 : Fin 1) d))
    (fun t => ∑ h : Fin 32, ∑ w : Fin 32, imgAt m ρ c t (ix4 (0 : Fin 1) d h w) * imgAt m ρ c t (ix4 (0 : Fin 1) d h w)) zeroW
    (fun h => Payload.sq_apply (imgAt m ρ c ⟨0, h⟩) _ d)
    (fun n h => Payload.sq_apply (imgAt m ρ c ⟨n + 1, h⟩) _ d)
    15 Accum.lt15
  show (Accum.stats (V0 m ρ) c 15 Accum.lt15).2 (ix2 (0 : Fin 1) d) = _
  rw [hsteps, zeroW_add]
  unfold colSq
  refine Eq.trans ?_ (col_blocks (argX m c) (fun v => v * v) d).symm
  refine Finset.sum_congr rfl fun t _ => Finset.sum_congr rfl fun h _ => Finset.sum_congr rfl fun w _ => ?_
  exact congrArg (fun v : EReal => v * v) (Entry.blk0_x (V0 m ρ) c _ d h w)

/-! ## The first host stretch: the two mean rows -/

theorem mean1_apply (c : Dev nD) (d : Fin 512) : V2 m ρ c main_v2 (ix2 (0 : Fin 1) d) = mean1 m c d := by
  rw [Entry.mean1_eq, Entry.sum_eq]
  show Ideal.div (Accum.sumRow (V0 m ρ) c (ix2 (0 : Fin 1) d)) _ = _
  rw [sumRow_apply]
  refine congrArg (Ideal.div _) ?_
  exact (broadcastInDim_apply _ _ _ (ix2 (0 : Fin 1) d) ix0 (fun a => a.elim0)).trans rfl

theorem mean2_apply (c : Dev nD) (d : Fin 512) : V2 m ρ c main_v4 (ix2 (0 : Fin 1) d) = mean2 m c d := by
  rw [Entry.mean2_eq, Entry.sq_eq]
  show Ideal.div (Accum.sqRow (V0 m ρ) c (ix2 (0 : Fin 1) d)) _ = _
  rw [sqRow_apply]
  refine congrArg (Ideal.div _) ?_
  exact (broadcastInDim_apply _ _ _ (ix2 (0 : Fin 1) d) ix0 (fun a => a.elim0)).trans rfl

/-! ## The loss pass: one grid point contributes the terms of its image's 1024 tokens -/

theorem part_eq (c : Dev nD) (t : Fin cfg1.N) :
    Accum.part (V2 m ρ) c t (ix2 (0 : Fin 1) (0 : Fin 1))
      = ∑ r : Fin 1024, termOf (argX m c) (argMu m c) (argLv m c) (mean1 m c) (mean2 m c)
          (Entry.tokenOf (Fin.cast N_1 t) r) := by
  refine (Payload.part_apply (iblk1 (V2 m ρ) c 0 t) (iblk1 (V2 m ρ) c 1 t) (iblk1 (V2 m ρ) c 2 t)
    (iblk1 (V2 m ρ) c 3 t) (iblk1 (V2 m ρ) c 4 t)).trans (Finset.sum_congr rfl fun r _ => ?_)
  unfold termOf
  refine congrArg₂ (fun a b => halfW * a - halfW * b) (Finset.sum_congr rfl fun d _ => ?_)
    (Finset.sum_congr rfl fun d _ => ?_)
  · rw [Entry.blk1_x, Entry.blk1_mu, Entry.blk1_lv, Entry.x_at_loss, Entry.mu_at_loss, Entry.lv_at_loss]
    show posAt (argX m c _) _ _ = posAt (tok (argX m c) ⟨(Fin.cast N_1 t).val * 1024 + r.val, _⟩ d) _ _
    rw [tok_block]
  · rw [Entry.blk1_m1, Entry.blk1_m2, Entry.blk1_mu, Entry.blk1_lv, mean1_apply, mean2_apply, Entry.mu_at_loss,
      Entry.lv_at_loss]

theorem total_apply (c : Dev nD) :
    Accum.total (V2 m ρ) c (ix2 (0 : Fin 1) (0 : Fin 1))
      = ∑ n : Fin 16384, termOf (argX m c) (argMu m c) (argLv m c) (mean1 m c) (mean2 m c) n := by
  have hsteps := Cert.FinSum.sum_of_steps cfg1.N
    (fun n h => Accum.acc (V2 m ρ) c n h (ix2 (0 : Fin 1) (0 : Fin 1)))
    (fun t => Accum.part (V2 m ρ) c t (ix2 (0 : Fin 1) (0 : Fin 1))) zeroW
    (fun h => Payload.acc_apply _ _ _)
    (fun n h => Payload.acc_apply _ _ _)
    15 Accum.lt15'
  show Accum.acc (V2 m ρ) c 15 Accum.lt15' (ix2 (0 : Fin 1) (0 : Fin 1)) = _
  rw [hsteps, zeroW_add, sum_tokens]
  refine Finset.sum_congr rfl fun t _ => ?_
  rw [part_eq]
  rfl

/-! ## The last host stretch: the result is the loss -/

theorem result_eq (c : Dev nD) :
    W4 m ρ c (Proc.devRef .tc main_v7) = fun _ => loss (argX m c) (argMu m c) (argLv m c) := by
  rw [Entry.out_eq, Entry.total_eq]
  funext i
  show Ideal.div (shapeCast S_ (Accum.total (V2 m ρ) c) _ i) _ = _
  rw [shapeCast_apply _ _ i (ix2 (0 : Fin 1) (0 : Fin 1)) (by rw [Shape.rowMajor_val_two]; rfl), total_apply]
  rfl

end Cert.KernelIdeal.Loss

end
-- ==== Proof.RefLoss.lean ====
/-
  The reference's result is the loss.

  The reference transposes x to [16, 32, 32, 512] and flattens it to [16384, 512]: entry (n, d) of that array is token
  n's feature d. Every later operation acts entry by entry or sums along one axis, and the host's sum is the initial
  value (the zero word) plus the sum over the axis. Read one operation at a time this is, token by token and feature by
  feature, the definition of the loss: the two per-feature means first, then each token's two feature sums, then the sum
  over tokens and the final division.
-/
import proofs.«117637_j36034775613659_2_alg».proof.Proof.Gen.ReferenceIdeal.Read
import proofs.«117637_j36034775613659_2_alg».proof.Proof.Spec
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

open scoped BigOperators

namespace Cert.ReferenceIdeal.RefLoss

open Cert.ReferenceIdeal Cert.ReferenceIdeal.Read Idealize.ShloMosaic.ValueIdx Cert.Club

variable (X : S16x512x32x32.Idx → EReal) (MU LV : S16384x512.Idx → EReal)

/-- The transposed and flattened x: entry (n, d) is token n's feature d. -/
theorem flat_tok (n : Fin 16384) (d : Fin 512) : val_main_v1 (F := Ideal) X (ix2 n d) = tok X n d := by
  rw [val_main_v1_apply, val_main_v0_apply]
  unfold tok
  refine congrArg X (funext fun a => ?_)
  have hn := n.isLt
  have hd := d.isLt
  match a with
  | ⟨0, _⟩ => exact Fin.ext (by show (n.val * 512 + d.val) / 524288 = n.val / 1024; omega)
  | ⟨1, _⟩ => exact Fin.ext (by show (n.val * 512 + d.val) % 512 = d.val; omega)
  | ⟨2, _⟩ => exact Fin.ext (by show (n.val * 512 + d.val) / 16384 % 32 = n.val / 32 % 32; omega)
  | ⟨3, _⟩ => exact Fin.ext (by show (n.val * 512 + d.val) / 512 % 32 = n.val % 32; omega)

theorem idx_col (d : Fin 512) (k : Fin 16384) : idx_main_v10 (ix1 d) k = ix2 k d :=
  funext fun a => match a with | ⟨0, _⟩ => rfl | ⟨1, _⟩ => rfl
theorem idx_col' (d : Fin 512) (k : Fin 16384) : idx_main_v14 (ix1 d) k = ix2 k d :=
  funext fun a => match a with | ⟨0, _⟩ => rfl | ⟨1, _⟩ => rfl
theorem idx_row (n : Fin 16384) (k : Fin 512) : idx_main_v7 (ix1 n) k = ix2 n k :=
  funext fun a => match a with | ⟨0, _⟩ => rfl | ⟨1, _⟩ => rfl
theorem idx_row' (n : Fin 16384) (k : Fin 512) : idx_main_v28 (ix1 n) k = ix2 n k :=
  funext fun a => match a with | ⟨0, _⟩ => rfl | ⟨1, _⟩ => rfl
theorem idx_feat (n : Fin 16384) (d : Fin 512) : idx_main_v19 (idx_main_v20 (ix2 n d)) = ix1 d :=
  funext fun a => match a with | ⟨0, _⟩ => rfl
theorem idx_feat' (n : Fin 16384) (d : Fin 512) : idx_main_v22 (idx_main_v23 (ix2 n d)) = ix1 d :=
  funext fun a => match a with | ⟨0, _⟩ => rfl

/-- The first per-feature mean: the sum of x over all tokens, divided by the token count. -/
theorem mean1_eq (d : Fin 512) : val_main_v12 (F := Ideal) X (ix1 d) = Ideal.div (colSum X d) cntW := by
  rw [val_main_v12_apply, val_main_v10_apply, val_main_v11_apply]
  show Ideal.div (zeroW + ∑ k : Fin 16384, val_main_v1 (F := Ideal) X (idx_main_v10 (ix1 d) k)) cntW = _
  rw [zeroW_add]
  refine congrArg (Ideal.div · cntW) (Finset.sum_congr rfl fun k _ => ?_)
  rw [idx_col]
  exact flat_tok X k d

/-- The second per-feature mean: the sum of x² over all tokens, divided by the token count. -/
theorem mean2_eq (d : Fin 512) : val_main_v16 (F := Ideal) X (ix1 d) = Ideal.div (colSq X d) cntW := by
  rw [val_main_v16_apply, val_main_v14_apply, val_main_v15_apply]
  show Ideal.div (zeroW + ∑ k : Fin 16384, val_main_v13 (F := Ideal) X (idx_main_v14 (ix1 d) k)) cntW = _
  rw [zeroW_add]
  refine congrArg (Ideal.div · cntW) (Finset.sum_congr rfl fun k _ => ?_)
  rw [idx_col', val_main_v13_apply, flat_tok]
  rfl

/-- One (token, feature) summand of the first sum. -/
theorem pos_eq (n : Fin 16384) (d : Fin 512) :
    val_main_v6 (F := Ideal) X MU LV (ix2 n d) = posAt (tok X n d) (MU (ix2 n d)) (LV (ix2 n d)) := by
  rw [val_main_v6_apply, val_main_v5_apply, val_main_v4_apply, val_main_v3_apply, val_main_v2_apply, flat_tok]
  rfl

/-- One (token, feature) summand of the second sum. -/
theorem neg_eq (n : Fin 16384) (d : Fin 512) :
    val_main_v27 (F := Ideal) X MU LV (ix2 n d)
      = negAt (Ideal.div (colSum X d) cntW) (Ideal.div (colSq X d) cntW) (MU (ix2 n d)) (LV (ix2 n d)) := by
  rw [val_main_v27_apply, val_main_v26_apply, val_main_v24_apply, val_main_v25_apply, val_main_v23_apply,
    val_main_v22_apply, val_main_v21_apply, val_main_v18_apply, val_main_v17_apply, val_main_v20_apply,
    val_main_v19_apply, val_main_v3_apply, val_main_v2_apply, idx_feat, idx_feat', mean1_eq, mean2_eq]
  rfl

/-- One token's term. -/
theorem term_eq (n : Fin 16384) :
    val_main_v31 (F := Ideal) X MU LV (ix1 n)
      = termOf X MU LV (fun d => Ideal.div (colSum X d) cntW) (fun d => Ideal.div (colSq X d) cntW) n := by
  rw [val_main_v31_apply, val_main_v9_apply, val_main_v30_apply, val_main_v8_apply, val_main_v29_apply,
    val_main_v7_apply, val_main_v28_apply]
  show halfW * (zeroW + ∑ k : Fin 512, val_main_v6 (F := Ideal) X MU LV (idx_main_v7 (ix1 n) k))
      - halfW * (zeroW + ∑ k : Fin 512, val_main_v27 (F := Ideal) X MU LV (idx_main_v28 (ix1 n) k)) = _
  rw [zeroW_add, zeroW_add]
  unfold termOf
  refine congrArg₂ (fun a b => halfW * a - halfW * b) (Finset.sum_congr rfl fun k _ => ?_)
    (Finset.sum_congr rfl fun k _ => ?_)
  · rw [idx_row]; exact pos_eq X MU LV n k
  · rw [idx_row']; exact neg_eq X MU LV n k

/-- A rank-one index set is its one coordinate's range. -/
def tokenEquiv : S16384.Idx ≃ Fin 16384 where
  toFun j := j 0
  invFun n := ix1 n
  left_inv j := (eq_ix1 j).symm
  right_inv _ := rfl

/-- The reference's result is the loss. -/
theorem loss_eq : val_main_v33 (F := Ideal) X MU LV ix0 = loss X MU LV := by
  rw [val_main_v33_apply, val_main_v32_apply]
  show Ideal.div (zeroW + ∑ j : S16384.Idx, val_main_v31 (F := Ideal) X MU LV j) cntW = _
  rw [zeroW_add]
  unfold loss
  refine congrArg (Ideal.div · cntW) ?_
  refine (Fintype.sum_equiv tokenEquiv _ (fun n => val_main_v31 (F := Ideal) X MU LV (ix1 n))
    (fun j => congrArg _ (eq_ix1 j))).trans (Finset.sum_congr rfl fun n _ => term_eq X MU LV n)

end Cert.ReferenceIdeal.RefLoss

end
-- ==== Proof.lean ====
/-
  The certificate: the kernel and its jnp reference compute the same loss over the extended reals.

  The kernel makes two passes over x, each over a grid of the 16 images. The first accumulates, per feature, the sum of
  x and of x² over all 16384 tokens; the host divides both by the token count. The second accumulates, image by image,
  the sum over that image's 1024 tokens of
      −½ · Σ_d (x − μ)² · exp(−logvar)  −  (−½) · Σ_d (m₂ − 2·μ·m₁ + μ²) · exp(−logvar),
  and the host divides the total by the token count. The reference computes the same quantities in one flat pass over the
  16384 tokens. Operation by operation and literal by literal the two programs agree; they differ only in how the token
  sums are grouped (by image, and inside an image by row and column, against one flat sum) and in writing −logvar as
  0 − logvar. Addition on the extended reals is commutative and associative and 0 − v = −v holds for every extended real,
  so both results are the one function `Cert.Club.loss` of the argument arrays, and the precondition (finite inputs) is
  never opened. The ideal pass rewrote nothing, so `preserves` is trivial; the three frame claims are the generated
  frames of the two kernels and the reference's run with its result dropped.
-/
import proofs.«117637_j36034775613659_2_alg».proof.Defs
import proofs.«117637_j36034775613659_2_alg».proof.Proof.Gen.Kernel
import proofs.«117637_j36034775613659_2_alg».proof.Proof.Gen.Kernel.Skeleton
import proofs.«117637_j36034775613659_2_alg».proof.Proof.Gen.Kernel.Launch
import proofs.«117637_j36034775613659_2_alg».proof.Proof.Gen.Kernel.Points
import proofs.«117637_j36034775613659_2_alg».proof.Proof.Gen.Kernel.Frame
import proofs.«117637_j36034775613659_2_alg».proof.Proof.Gen.KernelIdeal
import proofs.«117637_j36034775613659_2_alg».proof.Proof.Gen.KernelIdeal.Skeleton
import proofs.«117637_j36034775613659_2_alg».proof.Proof.Gen.KernelIdeal.Launch
import proofs.«117637_j36034775613659_2_alg».proof.Proof.Gen.KernelIdeal.Points
import proofs.«117637_j36034775613659_2_alg».proof.Proof.Gen.KernelIdeal.Frame
import proofs.«117637_j36034775613659_2_alg».proof.Proof.Gen.ReferenceIdeal
import proofs.«117637_j36034775613659_2_alg».proof.Proof.Gen.Pre_finite_inputs
import proofs.«117637_j36034775613659_2_alg».proof.Proof.Gen.ReferenceIdeal.Run
import proofs.«117637_j36034775613659_2_alg».proof.Proof.Gen.ReferenceIdeal.Read
import proofs.«117637_j36034775613659_2_alg».proof.Proof.KernelRun
import proofs.«117637_j36034775613659_2_alg».proof.Proof.KernelLoss
import proofs.«117637_j36034775613659_2_alg».proof.Proof.RefLoss
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the (agreeing) argument arrays in their result buffer. -/
theorem algebraic : Cert.algebraic_KernelIdeal_ReferenceIdeal := by
  intro m ρ m' ρ' _ hagree
  refine ⟨fun c => fun _ => Cert.Club.loss (Cert.KernelIdeal.Loss.argX m c) (Cert.KernelIdeal.Loss.argMu m c)
    (Cert.KernelIdeal.Loss.argLv m c), ?_, ?_⟩
  · exact (θ_run Cert.KernelIdeal.defs _ _).mono
      (fun _ h c => ⟨(h c).1.trans (Cert.KernelIdeal.Loss.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v33_eq _ _ _).trans ?_
    rw [(hagree c).1, (hagree c).2.1, (hagree c).2.2]
    funext i
    rw [eq_ix0 i]
    exact Cert.ReferenceIdeal.RefLoss.loss_eq _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
